-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩
abbrev S8192 : Shape := ⟨1, ![8192]⟩
abbrev S8192x1 : Shape := ⟨2, ![8192, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S_, .f32⟩
  | .hbm, ⟨2, _⟩ => ⟨S8192, .f32⟩
  | .hbm, ⟨3, _⟩ => ⟨S8192x1, .f32⟩
  | .hbm, ⟨4, _⟩ => ⟨S_, .f32⟩
  | .hbm, ⟨5, _⟩ => ⟨S8192x1, .f32⟩
  | .hbm, ⟨6, _⟩ => ⟨S8192x1, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x4096, .f32⟩
  | .hbm, ⟨68, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_cst_5 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_6 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_7 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_8 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_9 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_10 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_11 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_12 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_13 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_14 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)

variable [Facts₀]

class Facts : Prop extends Facts₀ where

variable [Facts]
-- ==== Proof.NewtonNorm.lean ====
/-
  Row normalisation with a Newton–Raphson inverse square root, on the extended reals.

  For a row `x` of `b` entries and a count `n`:
    μ = (Σₖ xₖ) / n,   cₖ = xₖ − μ,   a = (Σₖ cₖ²) / n + ε,
    y₀ = 1 / a,   yⱼ₊₁ = (½ · yⱼ) · (3 − a · yⱼ²)   (five steps),   outₖ = cₖ · y₅.
  The iteration approximates a^(-1/2); nothing here uses that, only that both programs compute these same
  expressions with these same literals. The literals are kept as the binary words the programs print, never
  evaluated: the same word on both sides is the same extended real.
-/
import Idealize.ShloMosaic.PureOps.Ideal
import Idealize.ShloMosaic.Lib.ValueIdx

noncomputable section

namespace Cert.NewtonNorm

open Idealize.ShloMosaic Idealize.ShloMosaic.ValueIdx

/-- The count of entries in a row, `4096`, as the word both programs divide by. -/
def cnt : EReal := Ideal.ofBits .f32 0x45800000#32
/-- The stabiliser `ε` added to the variance: the single-precision word nearest `1e-6`. -/
def eps : EReal := Ideal.ofBits .f32 0x358637BD#32
/-- `1`. -/
def one : EReal := Ideal.ofBits .f32 0x3F800000#32
/-- `1/2`. -/
def half : EReal := Ideal.ofBits .f32 0x3F000000#32
/-- `3`. -/
def three : EReal := Ideal.ofBits .f32 0x40400000#32

/-- One Newton–Raphson step towards `a^(-1/2)` from the guess `y`: `(½·y)·(3 − a·y²)`. -/
def step (a y : EReal) : EReal := half * y * (three - a * (y * y))

/-- Five steps from the seed `1/a`. -/
def newton (a : EReal) : EReal := step a (step a (step a (step a (step a (Ideal.div one a)))))

variable {b : ℕ}

/-- The mean of a row: its sum over the count. -/
def mean (row : Fin b → EReal) : EReal := Ideal.div (∑ k, row k) cnt

/-- An entry's deviation from its row's mean. -/
def dev (row : Fin b → EReal) (k : Fin b) : EReal := row k - mean row

/-- The row's variance plus `ε`. -/
def spread (row : Fin b → EReal) : EReal := Ideal.div (∑ k, dev row k * dev row k) cnt + eps

/-- The normalised entry: the deviation times the iterated inverse square root of the spread. -/
def normalized (row : Fin b → EReal) (k : Fin b) : EReal := dev row k * newton (spread row)

/-- The whole array: every row normalised by itself. -/
def rows {a : ℕ} (x : (⟨2, ![a, b]⟩ : Shape).Idx → EReal) : (⟨2, ![a, b]⟩ : Shape).Idx → EReal :=
  fun j => normalized (fun k => x (ix2 (j 0) k)) (j 1)

theorem rows_apply {a : ℕ} (x : (⟨2, ![a, b]⟩ : Shape).Idx → EReal) (p : Fin a) (q : Fin b) :
    rows x (ix2 p q) = normalized (fun k => x (ix2 p k)) q := rfl

end Cert.NewtonNorm

end
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.KernelBlock.lean ====
/-
  What the kernel's body leaves in one block, entry by entry.

  The body loads a block of 256 whole rows, sums each row along the lanes, keeps the sums as a column, and from
  there on works pointwise on columns and on the block. Read at row `p`, column `q` of the block, the stored value is
  the normalised entry of row `p` of the block at `q`: the lane sum is the sum of the row's entries, the cast to a
  column and the repeat of a column over the lanes read row `p`, and every other operation is pointwise.
-/
import proofs.«121562_j23407571764108_1_alg».proof.Proof.Gen.KernelIdeal.Skeleton
import proofs.«121562_j23407571764108_1_alg».proof.Proof.NewtonNorm
import proofs.«121562_j23407571764108_1_alg».proof.Proof.LibKeepdims

noncomputable section

namespace Cert.KernelBlock

open Idealize.ShloMosaic Idealize.ShloMosaic.ValueIdx Cert.KernelIdeal Cert.KernelIdeal.Gen Cert.NewtonNorm

/-- Row `p` of a block, as a function of the column. -/
abbrev rowOf (v0 : Vec Ideal S256x4096 .f32) (p : Fin 256) : Fin 4096 → EReal := fun k => v0 (ix2 p k)

/-- The centred block at `(p, k)`: the entry minus its row's mean. -/
theorem centred_apply (v0 : Vec Ideal S256x4096 .f32) (p : Fin 256) (k : Fin 4096) :
    k0_pay2 (F := Ideal) v0 (ix2 p k) = dev (rowOf v0 p) k := by
  unfold k0_pay2
  refine (subf_apply _ _ _).trans ?_
  rw [broadcastTo_a1_ab_apply]
  refine congrArg (v0 (ix2 p k) - ·) ?_
  refine (divf_apply _ _ _).trans ?_
  rw [shapeCast_a_a1_apply]
  exact congrArg (Ideal.div · cnt) (rowSum_apply v0 _ _ _ _ p)

/-- The column of variances plus `ε` at row `p`. -/
theorem spread_apply (v0 : Vec Ideal S256x4096 .f32) (p : Fin 256) :
    k0_pay3 (F := Ideal) v0 (ix2 p (0 : Fin 1)) = spread (rowOf v0 p) := by
  unfold k0_pay3
  refine (addf_apply _ _ _).trans ?_
  refine congrArg (· + eps) ?_
  refine (divf_apply _ _ _).trans ?_
  rw [shapeCast_a_a1_apply]
  refine congrArg (Ideal.div · cnt) ?_
  refine (rowSum_apply _ _ _ _ _ p).trans ?_
  refine Finset.sum_congr rfl fun k _ => ?_
  refine (mulf_apply _ _ _).trans ?_
  rw [centred_apply]

/-- The first three Newton steps from the seed, pointwise on the column. -/
theorem three_steps_apply (v0 : Vec Ideal S256x4096 .f32) (i : S256x1.Idx) :
    k0_pay4 (F := Ideal) v0 i
      = step (k0_pay3 (F := Ideal) v0 i) (step (k0_pay3 (F := Ideal) v0 i) (step (k0_pay3 (F := Ideal) v0 i)
          (Ideal.div one (k0_pay3 (F := Ideal) v0 i)))) := rfl

/-- Half the third iterate, pointwise. -/
theorem half_apply (v0 : Vec Ideal S256x4096 .f32) (i : S256x1.Idx) :
    k0_pay5 (F := Ideal) v0 i = half * k0_pay4 (F := Ideal) v0 i := rfl

/-- The fourth step's second factor, pointwise. -/
theorem factor_apply (v0 : Vec Ideal S256x4096 .f32) (i : S256x1.Idx) :
    k0_pay6 (F := Ideal) v0 i
      = three - k0_pay3 (F := Ideal) v0 i * (k0_pay4 (F := Ideal) v0 i * k0_pay4 (F := Ideal) v0 i) := rfl

/-- The stored block at `(p, q)`, over any centred block `c`, spread column `a` and the two factors `h`, `f` of the
    fourth iterate: the centred entry times one more step from `h · f`. -/
theorem last_step_apply (c : FVec Ideal S256x4096 .f32) (a h f : FVec Ideal S256x1 .f32) (p : Fin 256) (q : Fin 4096) :
    k0_pay1 (F := Ideal) c a h f (ix2 p q)
      = c (ix2 p q) * step (a (ix2 p (0 : Fin 1))) (h (ix2 p (0 : Fin 1)) * f (ix2 p (0 : Fin 1))) := by
  unfold k0_pay1
  refine (mulf_apply _ _ _).trans ?_
  rw [broadcastTo_a1_ab_apply]
  rfl

/-- THE BLOCK the body stores, at `(p, q)`: row `p` of the loaded block, normalised, at `q`. -/
theorem stored_apply (v0 : Vec Ideal S256x4096 .f32) (p : Fin 256) (q : Fin 4096) :
    k0_pay1 (F := Ideal) (k0_pay2 v0) (k0_pay3 v0) (k0_pay5 v0) (k0_pay6 v0) (ix2 p q)
      = normalized (rowOf v0 p) q := by
  rw [last_step_apply, centred_apply, half_apply, factor_apply, three_steps_apply, spread_apply]
  rfl

end Cert.KernelBlock

end
-- ==== Proof.KernelArray.lean ====
/-
  From blocks to the array: after the kernel's run the output array is every row of the input normalised by itself.

  The grid has 32 points; point `t` stages rows `256·t … 256·t + 255` of the input, all 4096 columns, and writes the
  same rows of the output. A row lies whole inside one block, so normalising the rows of a block is normalising those
  rows of the array: what point `t` writes back is block `t` of the whole-array function. The 32 blocks cover the
  8192 rows (row `r` is in block `r / 256`), so the array after the run is that function everywhere.
-/
import proofs.«121562_j23407571764108_1_alg».proof.Proof.Gen.KernelIdeal.Frame
import proofs.«121562_j23407571764108_1_alg».proof.Proof.KernelBlock
import Idealize.ShloMosaic.Lib.Pipeline.Value

noncomputable section

namespace Cert.KernelArray

open Cert.KernelIdeal Cert.KernelIdeal.Gen Idealize.ShloMosaic Idealize.ShloMosaic.TcCoe Idealize.SL.Sem
open Idealize.ShloMosaic.ValueIdx Cert.NewtonNorm Cert.KernelBlock
open Idealize.ShloMosaic.Pipeline (Dat)

/-- The body's one load and one store go through the rectangle at the origin: the whole staging buffer. -/
theorem origin : (![0, 0] : Fin 2 → Nat) = fun _ => 0 := funext fun a => by fin_cases a <;> rfl

/-- A block of whole rows, normalised row by row, is the whole-array function read through the block: over any
    block `x0`, array `X` and placement `e` of the block in the array that shifts the rows by `R`, keeps the columns,
    and under which the block is the array's restriction. -/
theorem block_eq (x0 : Vec Ideal S256x4096 .f32) (X : S8192x4096.Idx → EReal) (e : S256x4096.Idx → S8192x4096.Idx) (R : ℕ)
    (he0 : ∀ y, (e y 0).val = R + (y 0).val) (he1 : ∀ y, (e y 1).val = (y 1).val) (hx : ∀ y, x0 y = X (e y))
    (y : S256x4096.Idx) :
    k0_pay1 (F := Ideal) (k0_pay2 x0) (k0_pay3 x0) (k0_pay5 x0) (k0_pay6 x0) y = rows X (e y) := by
  obtain ⟨p, q, rfl⟩ : ∃ (p : Fin 256) (q : Fin 4096), y = ix2 p q := ⟨y 0, y 1, eq_ix2 y⟩
  rw [stored_apply]
  have hq : e (ix2 p q) 1 = q := Fin.ext (he1 (ix2 p q))
  have hrow : ∀ k : Fin 4096, e (ix2 p k) = ix2 (e (ix2 p q) 0) k := fun k => by
    funext a; apply Fin.ext
    match a with
    | ⟨0, _⟩ => show (e (ix2 p k) 0).val = (e (ix2 p q) 0).val; rw [he0, he0]
    | ⟨1, _⟩ => show (e (ix2 p k) 1).val = k.val; rw [he1]
  show normalized (rowOf x0 p) q = normalized (fun k => X (ix2 (e (ix2 p q) 0) k)) (e (ix2 p q) 1)
  rw [hq]
  refine congrArg (normalized · q) (funext fun k => ?_)
  show x0 (ix2 p k) = X (ix2 (e (ix2 p q) 0) k)
  rw [hx, hrow]
  rfl

variable (m : (ℓ : Loc nD τ sig) → Buf (Elt Ideal) ℓ) (ρ : Dev nD → PrngReg)

/-- The printed index maps, decided over the 32 points: both windows' block at point `t` is row block `t`, column block 0. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT POINT `t` WRITES BACK is block `t` of the row-normalised input array. -/
theorem flushed_eq (c : Dev nD) (t : Fin cfg0.N) :
    (dats m 0 c).flushed 1 t = ((cfg0.win 1).blk t).view.read (Elt Ideal) (rows (V m c main_arg0)) := by
  show (cfg0.win 1).cut (grid0.coords t) ((dats m 0 c).after 1 t) = _
  rw [after0_1]
  unfold out0_1
  rw [View.canon_unit_zero origin]
  simp only [View.ld_unit_zero (S := S256x4096) origin]
  obtain ⟨e0, e1, e2, e3⟩ := index_facts t
  funext y
  show k0_pay1 (F := Ideal) (k0_pay2 (iblk m c 0 t)) (k0_pay3 (iblk m c 0 t)) (k0_pay5 (iblk m c 0 t)) (k0_pay6 (iblk m c 0 t)) y
    = rows (V m c main_arg0) (((cfg0.win 1).blk t).view.emb y)
  refine block_eq (iblk m c 0 t) (V m c main_arg0) (fun y => ((cfg0.win 1).blk t).view.emb y) (t.val * 256) ?_ ?_ ?_ y
  · intro y
    show win0_1.index t (0 : Fin 2) * 256 + 1 * (y 0).val = t.val * 256 + (y 0).val
    omega
  · intro y
    show win0_1.index t (1 : Fin 2) * 4096 + 1 * (y 1).val = (y 1).val
    omega
  · intro y
    show V m c main_arg0 (((cfg0.win 0).blk t).view.emb y) = V m c main_arg0 (((cfg0.win 1).blk t).view.emb y)
    refine congrArg (V m c main_arg0) (funext fun a => Fin.ext ?_)
    match a with
    | ⟨0, _⟩ =>
      show win0_0.index t (0 : Fin 2) * 256 + 1 * (y 0).val = win0_1.index t (0 : Fin 2) * 256 + 1 * (y 0).val
      omega
    | ⟨1, _⟩ =>
      show win0_0.index t (1 : Fin 2) * 4096 + 1 * (y 1).val = win0_1.index t (1 : Fin 2) * 4096 + 1 * (y 1).val
      omega

/-- An index of the array is in point `t`'s block iff each coordinate is in the block's range on its axis. -/
theorem mem_block (t : Fin cfg0.N) (i : S8192x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v0).slice (win0_1.rect t)).set ↔ _
  rw [View.set_slice_whole, Rect.mem_set_unit]
  exact Iff.rfl

/-- Every index of the output array is in some point's block: row `r` in block `r / 256`. -/
theorem cover (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  have hN : (i 0).val / 256 < cfg0.N := by show (i 0).val / 256 < 32; omega
  obtain ⟨e0, e1, e2, e3⟩ := index_facts ⟨(i 0).val / 256, hN⟩
  refine ⟨⟨(i 0).val / 256, hN⟩, flush0_1 _, ?_⟩
  rw [mem_block]
  intro a
  match a with
  | ⟨0, _⟩ =>
    show win0_1.index ⟨(i 0).val / 256, hN⟩ (0 : Fin 2) * 256 ≤ (i 0).val
      ∧ (i 0).val < win0_1.index ⟨(i 0).val / 256, hN⟩ (0 : Fin 2) * 256 + 256
    rw [e2]
    show (i 0).val / 256 * 256 ≤ (i 0).val ∧ (i 0).val < (i 0).val / 256 * 256 + 256
    omega
  | ⟨1, _⟩ =>
    show win0_1.index ⟨(i 0).val / 256, hN⟩ (1 : Fin 2) * 4096 ≤ (i 1).val
      ∧ (i 1).val < win0_1.index ⟨(i 0).val / 256, hN⟩ (1 : Fin 2) * 4096 + 4096
    rw [e3]
    omega

/-- THE OUTPUT ARRAY after the run: every row of the input array normalised by itself. -/
theorem final (c : Dev nD) : (dats m 0 c).arrAt 1 cfg0.N = rows (a := 8192) (b := 4096) (m ((c : Thread nD τ).loc main_arg0)) :=
  (dats m 0 c).arrAt_eq_of_cover 1 (rows (V m c main_arg0)) (fun t _ => flushed_eq m c t) cover

/-- The frame run re-posted: the output array at the row-normalised input, the input unchanged. -/
theorem run : θ_run defs (onTc (τ := τ) (main (F := Ideal))) ⟨m, fun _ => 0, ρ⟩ fun r => ∀ c : Dev nD,
      r.2.mem ((c : Thread nD τ).loc main_v0) = rows (a := 8192) (b := 4096) (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelArray

end
-- ==== Proof.LibBcast.lean ====
/-
  Layout operations of small ranks read at an index given by coordinates: a vector made a column or a row, a column or a
  row repeated along the other axis, a scalar repeated everywhere. Each reads the operand at the coordinates it keeps.
-/
import Idealize.ShloMosaic.Lib.ValueIdx
import Idealize.ShloMosaic.Lib.Pipeline.Value
import Idealize.ShloMosaic.Lib.ValueLayout

namespace Cert.LibBcast

open Idealize.ShloMosaic Idealize.ShloMosaic.ValueIdx

variable {α : Type}

/-- A length-`a` vector broadcast to an `[a, 1]` column reads, at `(p, u)`, the vector at `p`. -/
theorem bid_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v (ix2 p u) (ix1 p) (fun d => by
    match d with
    | ⟨0, _⟩ =>
      show p.val = if a = 1 then 0 else p.val
      split_ifs with h1
      · have := p.isLt; omega
      · rfl)

/-- A length-`b` vector broadcast to a `[1, b]` row reads, at `(u, q)`, the vector at `q`. -/
theorem bid_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) :=
  broadcastInDim_apply _ h v (ix2 u q) (ix1 q) (fun d => by
    match d with
    | ⟨0, _⟩ =>
      show q.val = if b = 1 then 0 else q.val
      split_ifs with h1
      · have := q.isLt; omega
      · rfl)

/-- An `[a, 1]` column repeated over `b` columns reads, at `(p, q)`, the column at `(p, 0)`. -/
theorem bid_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun d => by
    match d with
    | ⟨0, _⟩ =>
      show p.val = if a = 1 then 0 else p.val
      split_ifs with h1
      · have := p.isLt; omega
      · rfl
    | ⟨1, _⟩ =>
      show (0 : ℕ) = if (1 : ℕ) = 1 then 0 else q.val
      rw [if_pos rfl])

/-- A `[1, b]` row repeated over `a` rows reads, at `(p, q)`, the row at `(0, q)`. -/
theorem bid_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun d => by
    match d with
    | ⟨0, _⟩ =>
      show (0 : ℕ) = if (1 : ℕ) = 1 then 0 else p.val
      rw [if_pos rfl]
    | ⟨1, _⟩ =>
      show q.val = if b = 1 then 0 else q.val
      split_ifs with h1
      · have := q.isLt; omega
      · rfl)

/-- A scalar repeated over any shape reads the scalar everywhere. -/
theorem bid_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun d => d.elim0)

/-- A length-`a` vector cast to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibBcast
-- ==== Proof.LibHostRowSum.lean ====
/-
  The host's sum along the columns of a matrix, read at a row.

  On the extended reals a host reduction with `add` along axis 1 of an `[a, b]` matrix, started from a scalar, has at row
  `p` the value "the scalar plus the sum of the `b` entries of row `p`": there is no rounding and no order of summation.
-/
import Idealize.ShloMosaic.Lib.ValueIdx
import Idealize.ShloMosaic.PureOps.Ideal.Laws

namespace Cert.LibHostRowSum

open Idealize.ShloMosaic Idealize.ShloMosaic.ValueIdx

/-- The host's sum along the columns of an `[a, b]` matrix from an initial scalar, at row `p`. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hS : 0 < (⟨0, ![]⟩ : Shape).numel) (p : Fin a) :
    Host.reduceAdd x init h' hS (ix1 p) = init (Shape.Idx.first hS) + ∑ k : Fin b, x (ix2 p k) := by
  simp only [Host.reduceAdd, Ideal.hostReduceAdd_def]
  rw [Ideal.hostReduceAdd_single h' h]
  exact congrArg (_ + ·) (Finset.sum_congr rfl fun k _ => congrArg x
    (funext fun ax => Fin.ext (by match ax with | ⟨0, _⟩ => rfl | ⟨1, _⟩ => rfl)))

end Cert.LibHostRowSum
-- ==== Proof.RefStages.lean ====
/-
  The reference's stages, read entry by entry.

  The reference computes on the whole [8192, 4096] array: a sum along the columns from zero, kept as a column,
  then pointwise work on columns and on the array. Its run is stated over seven named stages: the centred array,
  the column of spreads, the seed, and the first four Newton iterates. Read at row `r`, each is the row's own
  quantity: the host's sum from zero is the sum of the row's entries, a vector made a column and a column repeated
  over the columns read row `r`, a repeated scalar reads the scalar, and every other operation is pointwise.
-/
import proofs.«121562_j23407571764108_1_alg».proof.Proof.Gen.ReferenceIdeal.Run
import proofs.«121562_j23407571764108_1_alg».proof.Proof.NewtonNorm
import proofs.«121562_j23407571764108_1_alg».proof.Proof.LibBcast
import proofs.«121562_j23407571764108_1_alg».proof.Proof.LibHostRowSum
import Idealize.ShloMosaic.PureOps.Ideal.Laws

noncomputable section

namespace Cert.RefStages

open Idealize.ShloMosaic Idealize.ShloMosaic.ValueIdx Idealize.ShloMosaic.StableHlo
open Cert.ReferenceIdeal Cert.ReferenceIdeal.Gen Cert.ReferenceIdeal.Value Cert.NewtonNorm Cert.LibBcast Cert.LibHostRowSum

/-- The host's quotient, pointwise. -/
theorem hostDivf_apply {s : Shape} {φ : FTy} (a b : FVec Ideal s φ) (i : s.Idx) :
    Host.divf a b i = Ideal.div (a i) (b i) := rfl

/-- A literal repeated down a column reads the literal. -/
theorem lit_apply (w : BitVec 32) (j : S8192x1.Idx) :
    broadcastInDim S8192x1 ![] bcast_S_S8192x1 (constant (F := Ideal) S_ .f32 w) j = Ideal.ofBits .f32 w := rfl

/-- The host's sum along the columns from the zero word, at row `r`: the sum of the row's entries. -/
theorem rowSum_apply (x : FVec Ideal S8192x4096 .f32) (r : Fin 8192) :
    Host.reduceAdd x (constant (F := Ideal) S_ .f32 0x00000000#32) reducesTo_S8192x4096_S8192_d1 h_S_ (ix1 r)
      = ∑ k : Fin 4096, x (ix2 r k) := by
  refine (hostRowSum_apply x _ reducesTo_S8192x4096_S8192_d1 (by decide) h_S_ r).trans ?_
  rw [constant_apply, Ideal.ofBits_zero_f32, zero_add]

variable (W : Valuation τ sig (Elt Ideal))

/-- The argument array. -/
abbrev arg : S8192x4096.Idx → EReal := W (Proc.devRef .tc main_arg0)

/-- Row `r` of the argument array, as a function of the column. -/
abbrev rowOf (r : Fin 8192) : Fin 4096 → EReal := fun k => arg W (ix2 r k)

/-- The named stages, typed over their literal shapes. -/
abbrev centred : S8192x4096.Idx → EReal := res_main_v5 (F := Ideal) W
abbrev spreads : S8192x1.Idx → EReal := res_main_v12 (F := Ideal) W
abbrev seed : S8192x1.Idx → EReal := res_main_v14 (F := Ideal) W
abbrev iter1 : S8192x1.Idx → EReal := res_main_v21 (F := Ideal) W
abbrev iter2 : S8192x1.Idx → EReal := res_main_v28 (F := Ideal) W
abbrev iter3 : S8192x1.Idx → EReal := res_main_v35 (F := Ideal) W
abbrev iter4 : S8192x1.Idx → EReal := res_main_v42 (F := Ideal) W

/-- The centred array at `(r, k)`: the entry minus its row's mean. -/
theorem centred_apply (r : Fin 8192) (k : Fin 4096) : centred W (ix2 r k) = dev (rowOf W r) k := by
  unfold centred res_main_v5
  refine (subf_apply _ _ _).trans ?_
  rw [bid_a1_ab_apply]
  refine congrArg (arg W (ix2 r k) - ·) ?_
  refine (hostDivf_apply _ _ _).trans ?_
  rw [bid_col_apply]
  exact congrArg (Ideal.div · cnt) (rowSum_apply _ r)

/-- The column of spreads at row `r`. -/
theorem spreads_apply (r : Fin 8192) : spreads W (ix2 r (0 : Fin 1)) = spread (rowOf W r) := by
  unfold spreads res_main_v12
  refine (addf_apply _ _ _).trans ?_
  refine congrArg (· + eps) ?_
  refine (hostDivf_apply _ _ _).trans ?_
  rw [bid_col_apply]
  refine congrArg (Ideal.div · cnt) ?_
  refine (rowSum_apply _ r).trans ?_
  refine Finset.sum_congr rfl fun k _ => ?_
  refine (mulf_apply _ _ _).trans ?_
  exact congrArg₂ (· * ·) (centred_apply W r k) (centred_apply W r k)

/-- The seed and the four named iterates, pointwise on the column. -/
theorem seed_apply (i : S8192x1.Idx) : seed W i = Ideal.div one (spreads W i) := rfl
theorem iter1_apply (i : S8192x1.Idx) : iter1 W i = step (spreads W i) (seed W i) := rfl
theorem iter2_apply (i : S8192x1.Idx) : iter2 W i = step (spreads W i) (iter1 W i) := rfl
theorem iter3_apply (i : S8192x1.Idx) : iter3 W i = step (spreads W i) (iter2 W i) := rfl
theorem iter4_apply (i : S8192x1.Idx) : iter4 W i = step (spreads W i) (iter3 W i) := rfl

/-- The result's term over the named stages: the centred array times the fifth iterate repeated over the columns. -/
abbrev result : S8192x4096.Idx → EReal :=
  mulf (res_main_v5 (F := Ideal) W) (broadcastInDim S8192x4096 ![0, 1] bcast_S8192x1_S8192x4096_0_1 (mulf (mulf (broadcastInDim S8192x1 ![] bcast_S_S8192x1 (constant S_ .f32 0x3F000000#32)) (res_main_v42 W)) (subf (broadcastInDim S8192x1 ![] bcast_S_S8192x1 (constant S_ .f32 0x40400000#32)) (mulf (res_main_v12 W) (mulf (res_main_v42 W) (res_main_v42 W))))))

/-- THE REFERENCE'S RESULT is every row of the argument array normalised by itself. -/
theorem result_eq : result W = rows (arg W) := by
  funext j
  obtain ⟨r, q, rfl⟩ : ∃ (r : Fin 8192) (q : Fin 4096), j = ix2 r q := ⟨j 0, j 1, eq_ix2 j⟩
  rw [rows_apply]
  unfold result
  refine (mulf_apply _ _ _).trans ?_
  rw [bid_a1_ab_apply]
  refine congrArg₂ (· * ·) (centred_apply W r q) ?_
  show step (spreads W (ix2 r (0 : Fin 1))) (iter4 W (ix2 r (0 : Fin 1))) = _
  rw [iter4_apply, iter3_apply, iter2_apply, iter1_apply, seed_apply, spreads_apply]
  rfl

end Cert.RefStages

end
-- ==== Proof.lean ====
/-
  A layer normalisation whose inverse square root is five Newton–Raphson steps, tiled over row blocks, against the
  same computation on the whole array.

  For each row `x` of the [8192, 4096] input: μ = (Σ x)/4096, c = x − μ, a = (Σ c²)/4096 + ε, y₀ = 1/a,
  yⱼ₊₁ = (½·yⱼ)·(3 − a·yⱼ²), and the output row is c·y₅. The kernel does this on 32 blocks of 256 whole rows; the
  reference does it on the whole array. On the extended reals the two are the same expression of each row, with the
  same literals: a lane sum of a row is the host's sum of that row from zero, a sum kept as a column and repeated
  over the lanes reads the row's own value, and every other operation is pointwise. No law of arithmetic beyond
  `0 + s = s` is used, so the finiteness of the inputs is never needed.

  The kernel's two frames are the generated ones; the reference's frame is its generated run with the result
  dropped; the idealisation rewrote nothing, so `preserves` is trivial.
-/
import proofs.«121562_j23407571764108_1_alg».proof.Defs
import proofs.«121562_j23407571764108_1_alg».proof.Proof.Gen.Kernel
import proofs.«121562_j23407571764108_1_alg».proof.Proof.Gen.Kernel.Skeleton
import proofs.«121562_j23407571764108_1_alg».proof.Proof.Gen.Kernel.Launch
import proofs.«121562_j23407571764108_1_alg».proof.Proof.Gen.Kernel.Points
import proofs.«121562_j23407571764108_1_alg».proof.Proof.Gen.Kernel.Frame
import proofs.«121562_j23407571764108_1_alg».proof.Proof.Gen.KernelIdeal
import proofs.«121562_j23407571764108_1_alg».proof.Proof.Gen.KernelIdeal.Skeleton
import proofs.«121562_j23407571764108_1_alg».proof.Proof.Gen.KernelIdeal.Launch
import proofs.«121562_j23407571764108_1_alg».proof.Proof.Gen.KernelIdeal.Points
import proofs.«121562_j23407571764108_1_alg».proof.Proof.Gen.KernelIdeal.Frame
import proofs.«121562_j23407571764108_1_alg».proof.Proof.Gen.ReferenceIdeal
import proofs.«121562_j23407571764108_1_alg».proof.Proof.Gen.Pre_finite_inputs
import proofs.«121562_j23407571764108_1_alg».proof.Proof.Gen.ReferenceIdeal.Run
import proofs.«121562_j23407571764108_1_alg».proof.Proof.KernelArray
import proofs.«121562_j23407571764108_1_alg».proof.Proof.RefStages
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernel_ideal : Cert.frame_KernelIdeal := fun m ρ _ => Cert.KernelIdeal.Gen.frame m ρ

/-- The reference's run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the output at the row-normalised input: the kernel's by its blocks covering the array, the
    reference's by its stages read row by row; the inputs agree. -/
theorem algebraic : Cert.algebraic_KernelIdeal_ReferenceIdeal := by
  intro m ρ m' ρ' _ hagree
  refine ⟨fun c => Cert.NewtonNorm.rows (a := 8192) (b := 4096) (m ((c.tc : Thread Cert.KernelIdeal.nD Cert.KernelIdeal.τ).loc Cert.KernelIdeal.main_arg0)),
    Cert.KernelArray.run m ρ, ?_⟩
  refine (θ_run Cert.ReferenceIdeal.defs _ _).mono (fun _ h c => ⟨(h c).1.trans ?_, (h c).2⟩)
    (Cert.ReferenceIdeal.Value.run (F := Ideal) m' ρ')
  refine (Cert.RefStages.result_eq (launchContents m' c)).trans ?_
  exact congrArg (Cert.NewtonNorm.rows (a := 8192) (b := 4096)) (hagree c)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
